-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S100000x2048 : Shape := ⟨2, ![100000, 2048]⟩
abbrev S100000 : Shape := ⟨1, ![100000]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S100000x2048 : S_.BroadcastsInDim S100000x2048 (![] : Fin 0 → Fin S100000x2048.rank)
  reducesTo_S100000x2048_S_d0_1 : S100000x2048.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S64x2048 .f32) (main_arg1 : FVec F S100000x2048 .f32) (main_arg2 : FVec F S100000 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S100000x2048 .f32 := Host.absf main_arg1
  let main_cst_0 : FVec F S_ .f32 := constant S_ .f32 0x7F800000#32
  let main_v5 : FVec F S100000x2048 .f32 := broadcastInDim S100000x2048 ![] bcast_S_S100000x2048 main_cst_0
  let main_v6 : IVec S100000x2048 1 := cmpf .olt main_v4 main_v5
  let main_c_1 : IVec S_ 1 := constantI S_ 1 1#1
  let main_v7 : IVec S_ 1 := (fun x v => Host.reduce IntOp.andi x v reducesTo_S100000x2048_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S64x2048 : Shape := ⟨2, ![64, 2048]⟩
abbrev S100000x2048 : Shape := ⟨2, ![100000, 2048]⟩
abbrev S100000 : Shape := ⟨1, ![100000]⟩
abbrev S1x100000 : Shape := ⟨2, ![1, 100000]⟩
abbrev S64x100000 : Shape := ⟨2, ![64, 100000]⟩
abbrev S2048x2048 : Shape := ⟨2, ![2048, 2048]⟩
abbrev S1x100352 : Shape := ⟨2, ![1, 100352]⟩
abbrev S1x2048 : Shape := ⟨2, ![1, 2048]⟩

abbrev nBuf : Space → Nat
  | .hbm => 5
  | .vmem => 6
  | .smem => 0
  | _ => 0

abbrev bufTy : (tb : Table) → Fin (tcTables nBuf tb) → BufTy
  | .hbm, ⟨0, _⟩ => ⟨S64x2048, .f32⟩
  | .hbm, ⟨1, _⟩ => ⟨S100000x2048, .f32⟩
  | .hbm, ⟨2, _⟩ => ⟨S100000, .f32⟩
  | .hbm, ⟨3, _⟩ => ⟨S1x100000, .f32⟩
  | .hbm, ⟨4, _⟩ => ⟨S64x100000, .f32⟩
  | .local _ .vmem, ⟨0, _⟩ => ⟨S64x2048, .f32⟩
  | .local _ .vmem, ⟨1, _⟩ => ⟨S2048x2048, .f32⟩
  | .local _ .vmem, ⟨2, _⟩ => ⟨S2048x2048, .f32⟩
  | .local _ .vmem, ⟨3, _⟩ => ⟨S1x100352, .f32⟩
  | .local _ .vmem, ⟨4, _⟩ => ⟨S64x2048, .f32⟩
  | .local _ .vmem, ⟨5, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![49], ![false]⟩

def k0_off1 (i : grid0.Coords) : Fin 2 → Nat :=
  let c0_3 : Index := 0#32
  let arg0 : BitVec 32 := BitVec.ofNat 32 (i 0).val
  let c2048_i32 : BitVec 32 := 2048#32
  let v3 : BitVec 32 := Scalar.muli arg0 c2048_i32
  let v4 : Index := Scalar.indexCast v3
  ![0, v4.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x100352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S100000_S1x100000 : S100000.ShapeCasts S1x100000
  inb_S64x2048_S64x2048_0_0 : ∀ a, (![0, 0] : Fin 2 → Nat) a + S64x2048.size a ≤ S64x2048.size a
  h_S64x2048 : 0 < S64x2048.numel
  inb_S2048x2048_S2048x2048_0_0 : ∀ a, (![0, 0] : Fin 2 → Nat) a + S2048x2048.size a ≤ S2048x2048.size a
  h_S2048x2048 : 0 < S2048x2048.numel
  h_S1x2048 : 0 < S1x2048.numel
  shapeCasts_S1x2048_S1x2048 : S1x2048.ShapeCasts S1x2048
  broadcasts_S1x2048_S64x2048 : S1x2048.Broadcasts S64x2048
  dot_S64x2048_S2048x2048_S64x2048_1_1_0_0_n_n_wf : DotDims.WF S64x2048 S2048x2048 S64x2048 [1] [1] [0] [0] [] []
  hrank0 : 0 < grid0.rank
  k0_off1_inb : ∀ i : grid0.Coords, ∀ a, (k0_off1 i) a + S1x2048.size a ≤ S1x100352.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x2048.size a
  hwx0_0 : ∀ i : grid0.Coords, EltTy.bits .f32 = 32 ∨ (Rect.block (s := S64x2048) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x2048.size a < S100000x2048.size a
  hwx0_1 : ∀ i : grid0.Coords, EltTy.bits .f32 = 32 ∨ (Rect.unit (s := S100000x2048) (fun a => cc0_transform_1 i a * S2048x2048.size a) (fun a => (Pipeline.Clip.of (cc0_transform_1 i a) (S2048x2048.size a) (S100000x2048.size a)).extent (S2048x2048.size a)) fun a => Pipeline.Clip.inb (Pipeline.Clip.ok_of (hstart0_1 i a))).WholeWords (EltTy.packing .f32)
  hwxs0_1 : ∀ i : grid0.Coords, EltTy.bits .f32 = 32 ∨ (Rect.unit (s := S2048x2048) (fun _ => 0) (fun a => (Pipeline.Clip.of (cc0_transform_1 i a) (S2048x2048.size a) (S100000x2048.size a)).extent (S2048x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hstart0_2 : ∀ (i : grid0.Coords) a, cc0_transform_2 i a * S1x100352.size a < S1x100000.size a
  hwx0_2 : ∀ i : grid0.Coords, EltTy.bits .f32 = 32 ∨ (Rect.unit (s := S1x100000) (fun a => cc0_transform_2 i a * S1x100352.size a) (fun a => (Pipeline.Clip.of (cc0_transform_2 i a) (S1x100352.size a) (S1x100000.size a)).extent (S1x100352.size a)) fun a => Pipeline.Clip.inb (Pipeline.Clip.ok_of (hstart0_2 i a))).WholeWords (EltTy.packing .f32)
  hwxs0_2 : ∀ i : grid0.Coords, EltTy.bits .f32 = 32 ∨ (Rect.unit (s := S1x100352) (fun _ => 0) (fun a => (Pipeline.Clip.of (cc0_transform_2 i a) (S1x100352.size a) (S1x100000.size a)).extent (S1x100352.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S64x2048.size a < S64x100000.size a
  hwx0_3 : ∀ i : grid0.Coords, EltTy.bits .f32 = 32 ∨ (Rect.unit (s := S64x100000) (fun a => cc0_transform_3 i a * S64x2048.size a) (fun a => (Pipeline.Clip.of (cc0_transform_3 i a) (S64x2048.size a) (S64x100000.size a)).extent (S64x2048.size a)) fun a => Pipeline.Clip.inb (Pipeline.Clip.ok_of (hstart0_3 i a))).WholeWords (EltTy.packing .f32)
  hwxs0_3 : ∀ i : grid0.Coords, EltTy.bits .f32 = 32 ∨ (Rect.unit (s := S64x2048) (fun _ => 0) (fun a => (Pipeline.Clip.of (cc0_transform_3 i a) (S64x2048.size a) (S64x100000.size a)).extent (S64x2048.size a)) fun a => (Nat.zero_add _).trans_le (Pipeline.Clip.extent_le (Pipeline.Clip.ok_of (hstart0_3 i a)))).WholeWords (EltTy.packing .f32)

variable [Facts₀]

def dot_S64x2048_S2048x2048_S64x2048_1_1_0_0_n_n : DotDims S64x2048 S2048x2048 S64x2048 where
  lhsContracting := [1]
  rhsContracting := [1]
  lhsNonContracting := [0]
  rhsNonContracting := [0]
  lhsBatch := []
  rhsBatch := []
  wf := dot_S64x2048_S2048x2048_S64x2048_1_1_0_0_n_n_wf

abbrev win0_0 : Pipeline.Window sig grid0 :=
  Pipeline.Window.ofSpec (Memref.whole main_arg0) S64x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x100352.size cc0_transform_2 reads0_2 false false 1 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S64x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048 : Shape := ⟨2, ![64, 2048]⟩
abbrev S100000x2048 : Shape := ⟨2, ![100000, 2048]⟩
abbrev S100000 : Shape := ⟨1, ![100000]⟩
abbrev S2048x100000 : Shape := ⟨2, ![2048, 100000]⟩
abbrev S64x100000 : Shape := ⟨2, ![64, 100000]⟩
abbrev S1x100000 : Shape := ⟨2, ![1, 100000]⟩

abbrev nBuf : Space → Nat
  | .hbm => 8
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S100000x2048, .f32⟩
  | .hbm, ⟨2, _⟩ => ⟨S100000, .f32⟩
  | .hbm, ⟨3, _⟩ => ⟨S2048x100000, .f32⟩
  | .hbm, ⟨4, _⟩ => ⟨S64x100000, .f32⟩
  | .hbm, ⟨5, _⟩ => ⟨S1x100000, .f32⟩
  | .hbm, ⟨6, _⟩ => ⟨S64x100000, .f32⟩
  | .hbm, ⟨7, _⟩ => ⟨S64x100000, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S100000x2048_S2048x100000_1_0 : S100000x2048.Transposes [1, 0] S2048x100000
  bcast_S100000_S1x100000_1 : S100000.BroadcastsInDim S1x100000 (![1] : Fin 1 → Fin S1x100000.rank)
  bcast_S1x100000_S64x100000_0_1 : S1x100000.BroadcastsInDim S64x100000 (![0, 1] : Fin 2 → Fin S64x100000.rank)
  dot_S64x2048_S2048x100000_S64x100000_1_0_0_1_n_n_wf : DotDims.WF S64x2048 S2048x100000 S64x100000 [1] [0] [0] [1] [] []

variable [Facts₀]

def dot_S64x2048_S2048x100000_S64x100000_1_0_0_1_n_n : DotDims S64x2048 S2048x100000 S64x100000 where
  lhsContracting := [1]
  rhsContracting := [0]
  lhsNonContracting := [0]
  rhsNonContracting := [1]
  lhsBatch := []
  rhsBatch := []
  wf := dot_S64x2048_S2048x100000_S64x100000_1_0_0_1_n_n_wf

class Facts : Prop extends Facts₀ where

variable [Facts]
-- ==== Proof.KBody.lean ====
/-
  The kernel body as one step of the pipeline, at any float instance.

  At a grid point i the body reads the whole x buffer [64, 2048], the whole weight-tile buffer [2048, 2048] and
  the 2048 bias lanes that start at lane 2048·i of the bias buffer [1, 100352], and overwrites the whole output
  buffer [64, 2048] with   x · tileᵀ + bias   (one matrix product into the zero accumulator, the bias row
  broadcast down the 64 rows).  The three input buffers are left as found.  Nothing is said here of WHAT the
  buffers hold: that is the pipeline's business, point by point.
-/
import proofs.«154675_g34668976013719_cont_8to1_b_1141_24_alg».proof.Proof.Gen.Kernel.Launch
import proofs.«154675_g34668976013719_cont_8to1_b_1141_24_alg».proof.Proof.Gen.Kernel.Skeleton
import proofs.«154675_g34668976013719_cont_8to1_b_1141_24_alg».proof.Proof.Gen.Kernel.Points
import proofs.«154675_g34668976013719_cont_8to1_b_1141_24_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole [64, 2048] buffer (the x buffer, and the output buffer). -/
abbrev rX : Rect S64x2048 := Rect.unit (s := S64x2048) ![0, 0] S64x2048.size inb_S64x2048_S64x2048_0_0
/-- The whole [2048, 2048] weight-tile buffer. -/
abbrev rW : Rect S2048x2048 := Rect.unit (s := S2048x2048) ![0, 0] S2048x2048.size inb_S2048x2048_S2048x2048_0_0
/-- The 2048 bias lanes of grid point i: lanes 2048·i … 2048·i + 2047 of the one-row bias buffer. -/
abbrev rB (i : grid0.Coords) : Rect S1x100352 := Rect.unit (s := S1x100352) (k0_off1 i) S1x2048.size (k0_off1_inb i)

/-- What the body leaves in the output buffer, from what the three input buffers read: its one store. -/
def outBuf (i : grid0.Coords) (x0 : Vec F S64x2048 .f32) (x1 : Vec F S2048x2048 .f32) (x2 : Vec F S1x100352 .f32) :
    Vec F S64x2048 .f32 :=
  View.canon [⟨rX, k0_pay1 (View.ld x0 rX) (View.ld x1 rW) (View.ld x2 (rB i))⟩]

/-- The one store fills the output buffer. -/
theorem cover_out (p0 : Vec F S64x2048 .f32) (y : S64x2048.Idx) :
    ∃ pc ∈ ([⟨rX, p0⟩] : List (View.Piece (Elt F) S64x2048 .f32)), y ∈ pc.1.set :=
  View.cover_of_tiled [⟨rX, p0⟩] S64x2048.size (by rfl) y

/-! ## The body's triple -/

set_option maxHeartbeats 1000000 in
/-- The body on whole staging memrefs, the three inputs' at read contents x0, x1, x2 and the output's at anything,
    runs to the continuation holding the inputs' as they were and the output's at outBuf of them. -/
theorem sound_kernel (c : Dev nD) (E : Set ℕ) (i : grid0.Coords)
    (arg1 : Memref sig .tc .vmem S64x2048 .f32) (harg1 : arg1.IsWhole)
    (arg2 : Memref sig .tc .vmem S2048x2048 .f32) (harg2 : arg2.IsWhole)
    (arg3 : Memref sig .tc .vmem S1x100352 .f32) (harg3 : arg3.IsWhole)
    (arg4 : Memref sig .tc .vmem S64x2048 .f32) (harg4 : arg4.IsWhole)
    (x0 : Vec F S64x2048 .f32) (x1 : Vec F S2048x2048 .f32) (x2 : Vec F S1x100352 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (outBuf i x0 x1 x2)) -∗ K ⟨⟩))
      ⊢ wp frame (wpE (defs₀ (F := F)) Variants.none c none) E
          (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Kernel.Hand

end
-- ==== Proof.KFrame.lean ====
/-
  The frame of the kernel's program, at any float instance: it runs to the end, faults nowhere and leaves its
  three argument arrays as they were.

  The weight tiles [2048, 2048] do not tile the [100000, 2048] weight array (100000 = 48·2048 + 1696), the bias
  window [1, 100352] is wider than the bias row [1, 100000], and the last output block [64, 2048] overhangs the
  [64, 100000] result: at those places a transfer is cut at the array's end, and past the cut a staging buffer
  holds words nothing names.  The frame needs none of them: each input buffer holds, on the part a transfer
  moves, the array's block (fetched at this point or at an earlier one with the same block index), the body
  leaves the three input buffers as it found them, and what it leaves in the output buffer is not looked at.
-/
import proofs.«154675_g34668976013719_cont_8to1_b_1141_24_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cut of a block is a function of its block index -/

theorem clip1_of_index (t t' : Fin cfg0.N) (h : (cfg0.win 1).index t = (cfg0.win 1).index t') :
    (cfg0.win 1).clip (cfg0.grid.coords t) = (cfg0.win 1).clip (cfg0.grid.coords t') := by
  funext a
  show Pipeline.Clip.of (win0_1.index t a) _ _ = Pipeline.Clip.of (win0_1.index t' a) _ _
  rw [h]

theorem clip2_of_index (t t' : Fin cfg0.N) (h : (cfg0.win 2).index t = (cfg0.win 2).index t') :
    (cfg0.win 2).clip (cfg0.grid.coords t) = (cfg0.win 2).clip (cfg0.grid.coords t') := by
  funext a
  show Pipeline.Clip.of (win0_2.index t a) _ _ = Pipeline.Clip.of (win0_2.index t' a) _ _
  rw [h]

/-! ## The proof data -/

/-- The windows whose buffer the frame does not look at after the body: the output's. -/
abbrev forgotten : Fin cfg0.W → Bool := fun | 0 => false | 1 => false | 2 => false | 3 => true | ⟨_ + 4, h⟩ => absurd h (Nat.not_lt.2 (Nat.le_add_left _ _))

/-- On core c: the arrays as the region finds them; after the body at point t the x buffer at its block, the
    weight-tile and bias buffers at their blocks on the part a transfer moves (the zero word past it: a filler
    no statement reads), the output buffer unnamed. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => fun _ => Scalar.ofBits .f32 0#32
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem after0_0F (c : Dev nD) (t : Fin cfg0.N) : (datsF m 0 c).after 0 t = iblk m c 0 t := by dsimp only [datsF]
theorem after0_1F (c : Dev nD) (t : Fin cfg0.N) :
    (datsF m 0 c).after 1 t = win0_1.fill (grid0.coords t) (fun _ => Scalar.ofBits .f32 0#32) (iblk m c 1 t) := by dsimp only [datsF]
theorem after0_2F (c : Dev nD) (t : Fin cfg0.N) :
    (datsF m 0 c).after 2 t = win0_2.fill (grid0.coords t) (fun _ => Scalar.ofBits .f32 0#32) (iblk m c 2 t) := by dsimp only [datsF]

/-- What the body leaves in the weight-tile buffer, on the part a transfer moves, is the array's block. -/
theorem keep1F (c : Dev nD) (t : Fin cfg0.N) :
    (cfg0.win 1).cut (cfg0.grid.coords t) ((datsF m 0 c).after 1 t) = (datsF m 0 c).blockOf 1 t := by
  rw [after0_1F]
  refine (win0_1.cut_fill _ _ _).trans ?_
  unfold Dat.blockOf iblk; rw [A_eqF]
/-- The same of the bias buffer. -/
theorem keep2F (c : Dev nD) (t : Fin cfg0.N) :
    (cfg0.win 2).cut (cfg0.grid.coords t) ((datsF m 0 c).after 2 t) = (datsF m 0 c).blockOf 2 t := by
  rw [after0_2F]
  refine (win0_2.cut_fill _ _ _).trans ?_
  unfold Dat.blockOf iblk; rw [A_eqF]

/-- The x buffer holds x's one block at every point. -/
theorem before0_0F (c : Dev nD) (t : Fin cfg0.N) (d) : (datsF m 0 c).before 0 t d = iblk m c 0 t :=
  before0_0_of m (datsF m 0 c) (A_eqF m c 0) (after0_0F m c) t d
/-- The weight-tile buffer holds what a fetch at the point puts there: the tile's rows inside the array, and
    past them whatever it held. -/
theorem before0_1F (c : Dev nD) (t : Fin cfg0.N) (d) : (datsF m 0 c).before 1 t d = (datsF m 0 c).fetched 1 t d :=
  (datsF m 0 c).before_in_eq_fetched 1 rfl (fun _ => rfl) clip1_of_index (keep1F m c) t d
/-- The bias buffer, fetched at the first point only, holds at every point what that fetch put there. -/
theorem before0_2F (c : Dev nD) (t : Fin cfg0.N) (d) : (datsF m 0 c).before 2 t d = (datsF m 0 c).fetched 2 t d :=
  (datsF m 0 c).before_in_eq_fetched 2 rfl (fun _ => rfl) clip2_of_index (keep2F m c) t d

/-! ## The body obligation, at a generic point -/

def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ X, owns (c : Thread nD τ) (st0_3 t) fullShare X))

def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ (∃ d, owns (c : Thread nD τ) (st0_1 t) fullShare ((cfg0.win 1).fill (cfg0.grid.coords t) d ((cfg0.win 1).cut (cfg0.grid.coords t) ((datsF m 0 c).after 1 t))))
    ∗ (∃ d, owns (c : Thread nD τ) (st0_2 t) fullShare ((cfg0.win 2).fill (cfg0.grid.coords t) d ((cfg0.win 2).cut (cfg0.grid.coords t) ((datsF m 0 c).after 2 t))))
    ∗ (∃ X, owns (c : Thread nD τ) (st0_3 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before0_0F, before0_1F, before0_2F]
  rw [show (datsF m 0 c).Φ t.succ = (datsF m 0 c).Φ t.castSucc from rfl,
    show (datsF m 0 c).owesAt () t.succ = (datsF m 0 c).owesAt () t.castSucc from rfl,
    after0_0F, keep1F, keep2F]
  iintro ⟨HΦ, Ho, ⟨%d0, H0⟩, ⟨%d1, H1⟩, ⟨%d2, H2⟩, ⟨%X3, H3⟩⟩
  iapply (sound_kernel c Set.univ (grid0.coords t) _ _ _ _ _ _ _ _ (iblk m c 0 t) ((datsF m 0 c).fetched 1 t d1) ((datsF m 0 c).fetched 2 t d2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

theorem body_obligationF (c : Dev nD) :
    BodyObligationLoose (datsF (F := F) m 0 c) (defs₀ (F := F)) Variants.none () Set.univ forgotten := fun t => by
  rw [bigSep_W0, bigSep_W0]
  exact sound_bodyF m c t

/-! ## The run and the frame -/

set_option backward.isDefEq.respectTransparency.types false in
theorem run_mainF : θ_run defs (onTc (τ := τ) (main (F := F))) (s₀ m ρ)
    (Pipeline.RDat.FramePost cfg0 (fun c => (datsF m 0 c).toRForget forgotten) (V m)) :=
  Pipeline.RDat.θ_run_frame cfgs (0 : Fin 1) launch0 defs₀ Variants.none (fun c => (datsF m 0 c).toRForget forgotten) m ρ main
    (hbody := fun c => (body_obligationF m c).toRForget) (hshare := fun c => (datsF m 0 c).share_full fun _ => rfl)
    (howed := fun _ _ => rfl) (V := V m) (hmain := hmain m Variants.none) (hA := A_eqF m) (hΦ := fun _ _ => rfl)

/-- The frame: every weakly fair execution terminates without a fault and the three argument arrays end as
    launched — the two that are windows' arrays are inputs, never written back; the bias vector bypasses the
    region. -/
theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    have e0 : _ = ((datsF m 0 c).toRForget forgotten).A 0 :=
      Eq.mp (congrFun (Pipeline.RDat.ArrAt_in ((datsF m 0 c).toRForget forgotten) (0 : Fin 4) rfl cfg0.N) _) ((h c).1 0)
    have e1 : _ = ((datsF m 0 c).toRForget forgotten).A 1 :=
      Eq.mp (congrFun (Pipeline.RDat.ArrAt_in ((datsF m 0 c).toRForget forgotten) (1 : Fin 4) rfl cfg0.N) _) ((h c).1 1)
    exact ⟨e0.trans ((A_eqF m c 0).trans (V_main_arg0 m c)), e1.trans ((A_eqF m c 1).trans (V_main_arg1 m c)),
      ((h c).2 main_arg2 (Pipeline.mem_restRefs_of main_arg2 (by decide) (by decide))).trans (V_main_arg2 m c)⟩)
    (run_mainF m ρ)

end Cert.Kernel.Hand

end
-- ==== Proof.KIBody.lean ====
/-
  The kernel body as one step of the pipeline, at any float instance.

  At a grid point i the body reads the whole x buffer [64, 2048], the whole weight-tile buffer [2048, 2048] and
  the 2048 bias lanes that start at lane 2048·i of the bias buffer [1, 100352], and overwrites the whole output
  buffer [64, 2048] with   x · tileᵀ + bias   (one matrix product into the zero accumulator, the bias row
  broadcast down the 64 rows).  The three input buffers are left as found.  Nothing is said here of WHAT the
  buffers hold: that is the pipeline's business, point by point.
-/
import proofs.«154675_g34668976013719_cont_8to1_b_1141_24_alg».proof.Proof.Gen.KernelIdeal.Launch
import proofs.«154675_g34668976013719_cont_8to1_b_1141_24_alg».proof.Proof.Gen.KernelIdeal.Skeleton
import proofs.«154675_g34668976013719_cont_8to1_b_1141_24_alg».proof.Proof.Gen.KernelIdeal.Points
import proofs.«154675_g34668976013719_cont_8to1_b_1141_24_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole [64, 2048] buffer (the x buffer, and the output buffer). -/
abbrev rX : Rect S64x2048 := Rect.unit (s := S64x2048) ![0, 0] S64x2048.size inb_S64x2048_S64x2048_0_0
/-- The whole [2048, 2048] weight-tile buffer. -/
abbrev rW : Rect S2048x2048 := Rect.unit (s := S2048x2048) ![0, 0] S2048x2048.size inb_S2048x2048_S2048x2048_0_0
/-- The 2048 bias lanes of grid point i: lanes 2048·i … 2048·i + 2047 of the one-row bias buffer. -/
abbrev rB (i : grid0.Coords) : Rect S1x100352 := Rect.unit (s := S1x100352) (k0_off1 i) S1x2048.size (k0_off1_inb i)

/-- What the body leaves in the output buffer, from what the three input buffers read: its one store. -/
def outBuf (i : grid0.Coords) (x0 : Vec F S64x2048 .f32) (x1 : Vec F S2048x2048 .f32) (x2 : Vec F S1x100352 .f32) :
    Vec F S64x2048 .f32 :=
  View.canon [⟨rX, k0_pay1 (View.ld x0 rX) (View.ld x1 rW) (View.ld x2 (rB i))⟩]

/-- The one store fills the output buffer. -/
theorem cover_out (p0 : Vec F S64x2048 .f32) (y : S64x2048.Idx) :
    ∃ pc ∈ ([⟨rX, p0⟩] : List (View.Piece (Elt F) S64x2048 .f32)), y ∈ pc.1.set :=
  View.cover_of_tiled [⟨rX, p0⟩] S64x2048.size (by rfl) y

/-! ## The body's triple -/

set_option maxHeartbeats 1000000 in
/-- The body on whole staging memrefs, the three inputs' at read contents x0, x1, x2 and the output's at anything,
    runs to the continuation holding the inputs' as they were and the output's at outBuf of them. -/
theorem sound_kernel (c : Dev nD) (E : Set ℕ) (i : grid0.Coords)
    (arg1 : Memref sig .tc .vmem S64x2048 .f32) (harg1 : arg1.IsWhole)
    (arg2 : Memref sig .tc .vmem S2048x2048 .f32) (harg2 : arg2.IsWhole)
    (arg3 : Memref sig .tc .vmem S1x100352 .f32) (harg3 : arg3.IsWhole)
    (arg4 : Memref sig .tc .vmem S64x2048 .f32) (harg4 : arg4.IsWhole)
    (x0 : Vec F S64x2048 .f32) (x1 : Vec F S2048x2048 .f32) (x2 : Vec F S1x100352 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (outBuf i x0 x1 x2)) -∗ K ⟨⟩))
      ⊢ wp frame (wpE (defs₀ (F := F)) Variants.none c none) E
          (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.KernelIdeal.Hand

end
-- ==== Proof.KIFrame.lean ====
/-
  The frame of the kernel's program, at any float instance: it runs to the end, faults nowhere and leaves its
  three argument arrays as they were.

  The weight tiles [2048, 2048] do not tile the [100000, 2048] weight array (100000 = 48·2048 + 1696), the bias
  window [1, 100352] is wider than the bias row [1, 100000], and the last output block [64, 2048] overhangs the
  [64, 100000] result: at those places a transfer is cut at the array's end, and past the cut a staging buffer
  holds words nothing names.  The frame needs none of them: each input buffer holds, on the part a transfer
  moves, the array's block (fetched at this point or at an earlier one with the same block index), the body
  leaves the three input buffers as it found them, and what it leaves in the output buffer is not looked at.
-/
import proofs.«154675_g34668976013719_cont_8to1_b_1141_24_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cut of a block is a function of its block index -/

theorem clip1_of_index (t t' : Fin cfg0.N) (h : (cfg0.win 1).index t = (cfg0.win 1).index t') :
    (cfg0.win 1).clip (cfg0.grid.coords t) = (cfg0.win 1).clip (cfg0.grid.coords t') := by
  funext a
  show Pipeline.Clip.of (win0_1.index t a) _ _ = Pipeline.Clip.of (win0_1.index t' a) _ _
  rw [h]

theorem clip2_of_index (t t' : Fin cfg0.N) (h : (cfg0.win 2).index t = (cfg0.win 2).index t') :
    (cfg0.win 2).clip (cfg0.grid.coords t) = (cfg0.win 2).clip (cfg0.grid.coords t') := by
  funext a
  show Pipeline.Clip.of (win0_2.index t a) _ _ = Pipeline.Clip.of (win0_2.index t' a) _ _
  rw [h]

/-! ## The proof data -/

/-- The windows whose buffer the frame does not look at after the body: the output's. -/
abbrev forgotten : Fin cfg0.W → Bool := fun | 0 => false | 1 => false | 2 => false | 3 => true | ⟨_ + 4, h⟩ => absurd h (Nat.not_lt.2 (Nat.le_add_left _ _))

/-- On core c: the arrays as the region finds them; after the body at point t the x buffer at its block, the
    weight-tile and bias buffers at their blocks on the part a transfer moves (the zero word past it: a filler
    no statement reads), the output buffer unnamed. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => fun _ => Scalar.ofBits .f32 0#32
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem after0_0F (c : Dev nD) (t : Fin cfg0.N) : (datsF m 0 c).after 0 t = iblk m c 0 t := by dsimp only [datsF]
theorem after0_1F (c : Dev nD) (t : Fin cfg0.N) :
    (datsF m 0 c).after 1 t = win0_1.fill (grid0.coords t) (fun _ => Scalar.ofBits .f32 0#32) (iblk m c 1 t) := by dsimp only [datsF]
theorem after0_2F (c : Dev nD) (t : Fin cfg0.N) :
    (datsF m 0 c).after 2 t = win0_2.fill (grid0.coords t) (fun _ => Scalar.ofBits .f32 0#32) (iblk m c 2 t) := by dsimp only [datsF]

/-- What the body leaves in the weight-tile buffer, on the part a transfer moves, is the array's block. -/
theorem keep1F (c : Dev nD) (t : Fin cfg0.N) :
    (cfg0.win 1).cut (cfg0.grid.coords t) ((datsF m 0 c).after 1 t) = (datsF m 0 c).blockOf 1 t := by
  rw [after0_1F]
  refine (win0_1.cut_fill _ _ _).trans ?_
  unfold Dat.blockOf iblk; rw [A_eqF]
/-- The same of the bias buffer. -/
theorem keep2F (c : Dev nD) (t : Fin cfg0.N) :
    (cfg0.win 2).cut (cfg0.grid.coords t) ((datsF m 0 c).after 2 t) = (datsF m 0 c).blockOf 2 t := by
  rw [after0_2F]
  refine (win0_2.cut_fill _ _ _).trans ?_
  unfold Dat.blockOf iblk; rw [A_eqF]

/-- The x buffer holds x's one block at every point. -/
theorem before0_0F (c : Dev nD) (t : Fin cfg0.N) (d) : (datsF m 0 c).before 0 t d = iblk m c 0 t :=
  before0_0_of m (datsF m 0 c) (A_eqF m c 0) (after0_0F m c) t d
/-- The weight-tile buffer holds what a fetch at the point puts there: the tile's rows inside the array, and
    past them whatever it held. -/
theorem before0_1F (c : Dev nD) (t : Fin cfg0.N) (d) : (datsF m 0 c).before 1 t d = (datsF m 0 c).fetched 1 t d :=
  (datsF m 0 c).before_in_eq_fetched 1 rfl (fun _ => rfl) clip1_of_index (keep1F m c) t d
/-- The bias buffer, fetched at the first point only, holds at every point what that fetch put there. -/
theorem before0_2F (c : Dev nD) (t : Fin cfg0.N) (d) : (datsF m 0 c).before 2 t d = (datsF m 0 c).fetched 2 t d :=
  (datsF m 0 c).before_in_eq_fetched 2 rfl (fun _ => rfl) clip2_of_index (keep2F m c) t d

/-! ## The body obligation, at a generic point -/

def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ X, owns (c : Thread nD τ) (st0_3 t) fullShare X))

def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ (∃ d, owns (c : Thread nD τ) (st0_1 t) fullShare ((cfg0.win 1).fill (cfg0.grid.coords t) d ((cfg0.win 1).cut (cfg0.grid.coords t) ((datsF m 0 c).after 1 t))))
    ∗ (∃ d, owns (c : Thread nD τ) (st0_2 t) fullShare ((cfg0.win 2).fill (cfg0.grid.coords t) d ((cfg0.win 2).cut (cfg0.grid.coords t) ((datsF m 0 c).after 2 t))))
    ∗ (∃ X, owns (c : Thread nD τ) (st0_3 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before0_0F, before0_1F, before0_2F]
  rw [show (datsF m 0 c).Φ t.succ = (datsF m 0 c).Φ t.castSucc from rfl,
    show (datsF m 0 c).owesAt () t.succ = (datsF m 0 c).owesAt () t.castSucc from rfl,
    after0_0F, keep1F, keep2F]
  iintro ⟨HΦ, Ho, ⟨%d0, H0⟩, ⟨%d1, H1⟩, ⟨%d2, H2⟩, ⟨%X3, H3⟩⟩
  iapply (sound_kernel c Set.univ (grid0.coords t) _ _ _ _ _ _ _ _ (iblk m c 0 t) ((datsF m 0 c).fetched 1 t d1) ((datsF m 0 c).fetched 2 t d2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

theorem body_obligationF (c : Dev nD) :
    BodyObligationLoose (datsF (F := F) m 0 c) (defs₀ (F := F)) Variants.none () Set.univ forgotten := fun t => by
  rw [bigSep_W0, bigSep_W0]
  exact sound_bodyF m c t

/-! ## The run and the frame -/

set_option backward.isDefEq.respectTransparency.types false in
theorem run_mainF : θ_run defs (onTc (τ := τ) (main (F := F))) (s₀ m ρ)
    (Pipeline.RDat.FramePost cfg0 (fun c => (datsF m 0 c).toRForget forgotten) (V m)) :=
  Pipeline.RDat.θ_run_frame cfgs (0 : Fin 1) launch0 defs₀ Variants.none (fun c => (datsF m 0 c).toRForget forgotten) m ρ main
    (hbody := fun c => (body_obligationF m c).toRForget) (hshare := fun c => (datsF m 0 c).share_full fun _ => rfl)
    (howed := fun _ _ => rfl) (V := V m) (hmain := hmain m Variants.none) (hA := A_eqF m) (hΦ := fun _ _ => rfl)

/-- The frame: every weakly fair execution terminates without a fault and the three argument arrays end as
    launched — the two that are windows' arrays are inputs, never written back; the bias vector bypasses the
    region. -/
theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    have e0 : _ = ((datsF m 0 c).toRForget forgotten).A 0 :=
      Eq.mp (congrFun (Pipeline.RDat.ArrAt_in ((datsF m 0 c).toRForget forgotten) (0 : Fin 4) rfl cfg0.N) _) ((h c).1 0)
    have e1 : _ = ((datsF m 0 c).toRForget forgotten).A 1 :=
      Eq.mp (congrFun (Pipeline.RDat.ArrAt_in ((datsF m 0 c).toRForget forgotten) (1 : Fin 4) rfl cfg0.N) _) ((h c).1 1)
    exact ⟨e0.trans ((A_eqF m c 0).trans (V_main_arg0 m c)), e1.trans ((A_eqF m c 1).trans (V_main_arg1 m c)),
      ((h c).2 main_arg2 (Pipeline.mem_restRefs_of main_arg2 (by decide) (by decide))).trans (V_main_arg2 m c)⟩)
    (run_mainF m ρ)

end Cert.KernelIdeal.Hand

end
-- ==== Proof.LibFillMoved.lean ====
/-
  A staging buffer just fetched into holds the array's block on the part the transfer moved and the buffer's
  previous contents elsewhere (the library's `Window.fill`). Read at an index that WAS moved it is the fetched
  block there, whatever the previous contents: the form that lets a body's value at an in-array element ignore
  the words a clipped edge block leaves past the array's end.
-/
import Idealize.ShloMosaic.Lib.Pipeline

namespace Cert.Lib.FillMoved

open Idealize.ShloMosaic Idealize.ShloMosaic.Pipeline

/-- At an index the transfer moves, `fill i d g` is `g` there (and does not depend on `d`). -/
theorem fill_of_moved {sig : RefSig} {G : Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Window.fill; rw [dif_pos h]

end Cert.Lib.FillMoved
-- ==== Proof.KIGeom.lean ====
/-
  Where the pipeline's blocks sit, and what a staging buffer holds at an element a transfer moved.

  Grid point t (0 ≤ t < 49) uses rows 2048·t … of the weight matrix, lanes 2048·t … of the bias row and columns
  2048·t … of the result; x and the bias row are one block each.  A transfer moves the part of a block that lies
  inside its array: all 2048 rows / columns while 2048·t + 2048 ≤ 100000, the first 100000 − 2048·t = 1696 at the
  last point; of the bias window, its first 100000 lanes.
-/
import proofs.«154675_g34668976013719_cont_8to1_b_1141_24_alg».proof.Proof.Gen.KernelIdeal.Frame
import proofs.«154675_g34668976013719_cont_8to1_b_1141_24_alg».proof.Proof.LibFillMoved
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Rounds
open Idealize.ShloMosaic.Pipeline (Dat Cfg Window)

variable {F : FTy → Type} [FloatOps F]

/-! ## The schedule, decided over the 49 grid points -/

theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem xs1 : ∀ t : Fin cfg0.N, win0_1.xsize (grid0.coords t) (0 : Fin 2) = min 2048 (100000 - 2048 * t.val)
    ∧ win0_1.xsize (grid0.coords t) (1 : Fin 2) = 2048 :=
  (by decide +kernel : ∀ t : Fin grid0.N, win0_1.xsize (grid0.coords t) (0 : Fin 2) = min 2048 (100000 - 2048 * t.val)
    ∧ win0_1.xsize (grid0.coords t) (1 : Fin 2) = 2048)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem xs2 : ∀ t : Fin cfg0.N, win0_2.xsize (grid0.coords t) (0 : Fin 2) = 1 ∧ win0_2.xsize (grid0.coords t) (1 : Fin 2) = 100000 :=
  (by decide +kernel : ∀ t : Fin grid0.N, win0_2.xsize (grid0.coords t) (0 : Fin 2) = 1 ∧ win0_2.xsize (grid0.coords t) (1 : Fin 2) = 100000)
theorem idx3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)
theorem xs3 : ∀ t : Fin cfg0.N, win0_3.xsize (grid0.coords t) (0 : Fin 2) = 64
    ∧ win0_3.xsize (grid0.coords t) (1 : Fin 2) = min 2048 (100000 - 2048 * t.val) :=
  (by decide +kernel : ∀ t : Fin grid0.N, win0_3.xsize (grid0.coords t) (0 : Fin 2) = 64
    ∧ win0_3.xsize (grid0.coords t) (1 : Fin 2) = min 2048 (100000 - 2048 * t.val))
/-- The bias lanes the body loads at point t start at lane 2048·t. -/
theorem off1 : ∀ t : Fin cfg0.N, k0_off1 (grid0.coords t) = ![0, 2048 * t.val] :=
  (by decide +kernel : ∀ t : Fin grid0.N, k0_off1 (grid0.coords t) = ![0, 2048 * t.val])
theorem t_lt (t : Fin cfg0.N) : t.val < 49 := t.isLt

/-! ## A block of an array, read at coordinates -/

section Reads
variable {c : Dev nD}

/-- x's one block is x. -/
theorem read_blk0 (A : Buf (Elt F) ((c : Thread nD τ).loc main_arg0)) (t : Fin cfg0.N)
    (y : ((cfg0.win 0).xblock (cfg0.grid.coords t)).Idx) (h0 : (y 0).val < 64) (h1 : (y 1).val < 2048) :
    ((cfg0.win 0).blk t).view.read (Elt F) A y = A (ix2 (⟨(y 0).val, h0⟩ : Fin 64) (⟨(y 1).val, h1⟩ : Fin 2048)) := by
  show A (((cfg0.win 0).blk t).view.emb y) = _
  refine congrArg A (funext fun a => Fin.ext ?_)
  obtain ⟨e0, e1⟩ := idx0 t
  match a with
  | ⟨0, _⟩ => show win0_0.index t (0 : Fin 2) * 64 + 1 * (y 0).val = (y 0).val; rw [e0]; omega
  | ⟨1, _⟩ => show win0_0.index t (1 : Fin 2) * 2048 + 1 * (y 1).val = (y 1).val; rw [e1]; omega

/-- Row q of the weight tile at point t is row 2048·t + q of the weight matrix. -/
theorem read_blk1 (A : Buf (Elt F) ((c : Thread nD τ).loc main_arg1)) (t : Fin cfg0.N)
    (y : ((cfg0.win 1).xblock (cfg0.grid.coords t)).Idx) (h : 2048 * t.val + (y 0).val < 100000) (h1 : (y 1).val < 2048) :
    ((cfg0.win 1).blk t).view.read (Elt F) A y
      = A (ix2 (⟨2048 * t.val + (y 0).val, h⟩ : Fin 100000) (⟨(y 1).val, h1⟩ : Fin 2048)) := by
  show A (((cfg0.win 1).blk t).view.emb y) = _
  refine congrArg A (funext fun a => Fin.ext ?_)
  obtain ⟨e0, e1⟩ := idx1 t
  match a with
  | ⟨0, _⟩ => show win0_1.index t (0 : Fin 2) * 2048 + 1 * (y 0).val = 2048 * t.val + (y 0).val; rw [e0]; omega
  | ⟨1, _⟩ => show win0_1.index t (1 : Fin 2) * 2048 + 1 * (y 1).val = (y 1).val; rw [e1]; omega

/-- The bias window's one block is the bias row. -/
theorem read_blk2 (A : Buf (Elt F) ((c : Thread nD τ).loc main_v0)) (t : Fin cfg0.N)
    (y : ((cfg0.win 2).xblock (cfg0.grid.coords t)).Idx) (h : (y 1).val < 100000) :
    ((cfg0.win 2).blk t).view.read (Elt F) A y = A (ix2 (0 : Fin 1) (⟨(y 1).val, h⟩ : Fin 100000)) := by
  show A (((cfg0.win 2).blk t).view.emb y) = _
  refine congrArg A (funext fun a => Fin.ext ?_)
  obtain ⟨e0, e1⟩ := idx2 t
  have hy0 : (y 0).val < win0_2.xsize (grid0.coords t) (0 : Fin 2) := (y 0).isLt
  rw [(xs2 t).1] at hy0
  match a with
  | ⟨0, _⟩ => show win0_2.index t (0 : Fin 2) * 1 + 1 * (y 0).val = 0; rw [e0]; omega
  | ⟨1, _⟩ => show win0_2.index t (1 : Fin 2) * 100352 + 1 * (y 1).val = (y 1).val; rw [e1]; omega

/-- Column q of the result's block at point t is column 2048·t + q of the result. -/
theorem read_blk3 (A : Buf (Elt F) ((c : Thread nD τ).loc main_v1)) (t : Fin cfg0.N)
    (y : ((cfg0.win 3).xblock (cfg0.grid.coords t)).Idx) (h0 : (y 0).val < 64) (h : 2048 * t.val + (y 1).val < 100000) :
    ((cfg0.win 3).blk t).view.read (Elt F) A y
      = A (ix2 (⟨(y 0).val, h0⟩ : Fin 64) (⟨2048 * t.val + (y 1).val, h⟩ : Fin 100000)) := by
  show A (((cfg0.win 3).blk t).view.emb y) = _
  refine congrArg A (funext fun a => Fin.ext ?_)
  obtain ⟨e0, e1⟩ := idx3 t
  match a with
  | ⟨0, _⟩ => show win0_3.index t (0 : Fin 2) * 64 + 1 * (y 0).val = (y 0).val; rw [e0]; omega
  | ⟨1, _⟩ => show win0_3.index t (1 : Fin 2) * 2048 + 1 * (y 1).val = 2048 * t.val + (y 1).val; rw [e1]; omega

/-! ## A staging buffer after a (possibly cut) fetch, read at an element the transfer moved -/

/-- The weight-tile buffer after the fetch at point t, at a row inside the array: the weight matrix's row,
    whatever the buffer held before. -/
theorem fetched1_at (dat : Dat τ (Elt F) Unit ℕ (UR sig nD τ) ℕ cfg0 c) (t : Fin cfg0.N)
    (d : S2048x2048.Idx → Elt F .f32) (q k : Fin 2048) (h : 2048 * t.val + q.val < 100000) :
    dat.fetched 1 t d (ix2 q k) = dat.A 1 (ix2 (⟨2048 * t.val + q.val, h⟩ : Fin 100000) k) := by
  have hm : (cfg0.win 1).moved (cfg0.grid.coords t) (ix2 q k) = true := by
    rw [Window.moved_iff]; intro a
    obtain ⟨x0, x1⟩ := xs1 t
    match a with
    | ⟨0, _⟩ => show q.val < win0_1.xsize (grid0.coords t) (0 : Fin 2); rw [x0]; have := q.isLt; omega
    | ⟨1, _⟩ => show k.val < win0_1.xsize (grid0.coords t) (1 : Fin 2); rw [x1]; exact k.isLt
  unfold Dat.fetched
  rw [Cert.Lib.FillMoved.fill_of_moved _ _ _ _ _ hm]
  unfold Dat.blockOf
  exact read_blk1 (dat.A 1) t _ h k.isLt

/-- The bias buffer after its fetch, at a lane inside the bias row: the bias there. -/
theorem fetched2_at (dat : Dat τ (Elt F) Unit ℕ (UR sig nD τ) ℕ cfg0 c) (t : Fin cfg0.N)
    (d : S1x100352.Idx → Elt F .f32) (col : Fin 100352) (h : col.val < 100000) :
    dat.fetched 2 t d (ix2 (0 : Fin 1) col) = dat.A 2 (ix2 (0 : Fin 1) (⟨col.val, h⟩ : Fin 100000)) := by
  have hm : (cfg0.win 2).moved (cfg0.grid.coords t) (ix2 (0 : Fin 1) col) = true := by
    rw [Window.moved_iff]; intro a
    obtain ⟨x0, x1⟩ := xs2 t
    match a with
    | ⟨0, _⟩ => show (0 : Nat) < win0_2.xsize (grid0.coords t) (0 : Fin 2); rw [x0]; omega
    | ⟨1, _⟩ => show col.val < win0_2.xsize (grid0.coords t) (1 : Fin 2); rw [x1]; exact h
  unfold Dat.fetched
  rw [Cert.Lib.FillMoved.fill_of_moved _ _ _ _ _ hm]
  unfold Dat.blockOf
  exact read_blk2 (dat.A 2) t _ h

end Reads

end Cert.KernelIdeal.Hand

end
-- ==== Proof.LibMatmulRowsByRows.lean ====
/-
  A matrix product whose two operands are both contracted over their LAST axis, read at an entry.

  A kernel that keeps a weight matrix in its natural [outputs, inputs] layout multiplies an [n, K] block by a
  [d, K] block "row against row": out[r, c] = Σ_k lhs[r, k] · rhs[c, k].  Into the zero accumulator, at the exact
  instance, that sum is all there is.
-/
import Idealize.ShloMosaic.PureOps.Ideal.Laws
import Idealize.ShloMosaic.Lib.ValueIdx

noncomputable section

namespace Cert.Lib.MatmulRowsByRows

open Idealize.ShloMosaic Idealize.ShloMosaic.ValueIdx

/-- A matrix product of an [n, K] operand with a [d, K] operand, both contracted over their last axis, into the
    zero accumulator, read at entry (r, c): the sum over the contracted axis of row r of the left operand times
    row c of the right.  The four hypotheses name the coordinates of the operands' indices at an output index and
    a contraction index (for a printed dimension record: two by unfolding the index maps on the free axes, two
    by the library's lhsIdx_val_of_single / rhsIdx_val_of_single on the contracted ones). -/
theorem matmul_zero_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (prec : Option ContractPrecision)
    (lhs : FVec Ideal ⟨2, ![n, K]⟩ φ₁) (rhs : FVec Ideal ⟨2, ![d, K]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

end Cert.Lib.MatmulRowsByRows

end
-- ==== Proof.KIPayload.lean ====
/-
  The body's one stored value, read at an entry, on the extended reals.

  With v0 the x buffer [64, 2048], v1 the weight-tile buffer [2048, 2048] and v5 the 2048 bias lanes [1, 2048] the
  body loaded, the stored [64, 2048] value at (r, q) is   Σ_k v0[r, k] · v1[q, k] + v5[0, q] :  the matrix product
  contracts both operands over their last axis into the zero accumulator, and the bias row is broadcast down
  the rows.  Entry (r, q) reads row q of the tile and lane q of the bias and nothing else of them.
-/
import proofs.«154675_g34668976013719_cont_8to1_b_1141_24_alg».proof.Proof.Gen.KernelIdeal.Skeleton
import proofs.«154675_g34668976013719_cont_8to1_b_1141_24_alg».proof.Proof.LibMatmulRowsByRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The dimension record of the body's product: an output entry (r, q) and a contraction index k read the left
    operand at (r, k) and the right operand at (q, k). -/
theorem dot_l0 (j : S64x2048.Idx) (p : dot_S64x2048_S2048x2048_S64x2048_1_1_0_0_n_n.contr.Idx) :
    (dot_S64x2048_S2048x2048_S64x2048_1_1_0_0_n_n.lhsIdx j p 0).val = (j 0).val := by
  unfold DotDims.lhsIdx
  rw [dif_neg (show ¬(0 : Fin S64x2048.rank) ∈ dot_S64x2048_S2048x2048_S64x2048_1_1_0_0_n_n.lhsBatch by decide),
    dif_pos (show (0 : Fin S64x2048.rank) ∈ dot_S64x2048_S2048x2048_S64x2048_1_1_0_0_n_n.lhsNonContracting by decide)]
  rfl
theorem dot_l1 (j : S64x2048.Idx) (p : dot_S64x2048_S2048x2048_S64x2048_1_1_0_0_n_n.contr.Idx) :
    (dot_S64x2048_S2048x2048_S64x2048_1_1_0_0_n_n.lhsIdx j p 1).val = (p ⟨0, by decide⟩).val :=
  dot_S64x2048_S2048x2048_S64x2048_1_1_0_0_n_n.lhsIdx_val_of_single rfl j p
theorem dot_r0 (j : S64x2048.Idx) (p : dot_S64x2048_S2048x2048_S64x2048_1_1_0_0_n_n.contr.Idx) :
    (dot_S64x2048_S2048x2048_S64x2048_1_1_0_0_n_n.rhsIdx j p 0).val = (j 1).val := by
  unfold DotDims.rhsIdx
  rw [dif_neg (show ¬(0 : Fin S2048x2048.rank) ∈ dot_S64x2048_S2048x2048_S64x2048_1_1_0_0_n_n.rhsBatch by decide),
    dif_pos (show (0 : Fin S2048x2048.rank) ∈ dot_S64x2048_S2048x2048_S64x2048_1_1_0_0_n_n.rhsNonContracting by decide)]
  rfl
theorem dot_r1 (j : S64x2048.Idx) (p : dot_S64x2048_S2048x2048_S64x2048_1_1_0_0_n_n.contr.Idx) :
    (dot_S64x2048_S2048x2048_S64x2048_1_1_0_0_n_n.rhsIdx j p 1).val = (p ⟨0, by decide⟩).val :=
  dot_S64x2048_S2048x2048_S64x2048_1_1_0_0_n_n.rhsIdx_val_of_single rfl j p

/-- The stored value at entry (r, q). -/
theorem pay_at (v0 : Vec Ideal S64x2048 .f32) (v1 : Vec Ideal S2048x2048 .f32) (v5 : Vec Ideal S1x2048 .f32)
    (r : Fin 64) (q : Fin 2048) :
    k0_pay1 (F := Ideal) v0 v1 v5 (ix2 r q) = (∑ k : Fin 2048, v0 (ix2 r k) * v1 (ix2 q k)) + v5 (ix2 (0 : Fin 1) q) := by
  unfold k0_pay1
  refine (addf_apply _ _ _).trans ?_
  refine congrArg₂ (· + ·) ?_ ?_
  · exact Cert.Lib.MatmulRowsByRows.matmul_zero_at (n := 64) (K := 2048) (d := 2048)
      dot_S64x2048_S2048x2048_S64x2048_1_1_0_0_n_n rfl rfl dot_l0 dot_l1 dot_r0 dot_r1 none v0 v1 r q
  · refine (broadcastTo_1b_ab_apply _ broadcasts_S1x2048_S64x2048 r q).trans ?_
    rw [shapeCast_self]

end Cert.KernelIdeal.Hand

end
-- ==== Proof.Spec.lean ====
/-
  What both programs compute: the linear head  logits[r, c] = Σ_k x[r, k] · W[c, k] + b[c]
  of a batch x [64, 2048] against a weight matrix W [100000, 2048] kept in its [outputs, inputs] layout and a
  bias b [100000], on the extended reals.
-/
import Idealize.ShloMosaic.PureOps.Ideal
import Idealize.ShloMosaic.Lib.ValueIdx

noncomputable section

open scoped BigOperators

namespace Cert.Spec

open Idealize.ShloMosaic Idealize.ShloMosaic.ValueIdx

/-- Entry (r, c) of the result: row r of x against row c of W, plus the c-th bias. -/
def logitsAt (x : (⟨2, ![64, 2048]⟩ : Shape).Idx → EReal) (W : (⟨2, ![100000, 2048]⟩ : Shape).Idx → EReal)
    (b : (⟨1, ![100000]⟩ : Shape).Idx → EReal) (r : Fin 64) (c : Fin 100000) : EReal :=
  (∑ k : Fin 2048, x (ix2 r k) * W (ix2 c k)) + b (ix1 c)

/-- The whole result array. -/
def logits (x : (⟨2, ![64, 2048]⟩ : Shape).Idx → EReal) (W : (⟨2, ![100000, 2048]⟩ : Shape).Idx → EReal)
    (b : (⟨1, ![100000]⟩ : Shape).Idx → EReal) : (⟨2, ![64, 100000]⟩ : Shape).Idx → EReal :=
  fun i => logitsAt x W b ⟨(i 0).val, (i 0).isLt⟩ ⟨(i 1).val, (i 1).isLt⟩

theorem logits_ix2 (x : (⟨2, ![64, 2048]⟩ : Shape).Idx → EReal) (W : (⟨2, ![100000, 2048]⟩ : Shape).Idx → EReal)
    (b : (⟨1, ![100000]⟩ : Shape).Idx → EReal) (r : Fin 64) (c : Fin 100000) :
    logits x W b (ix2 r c) = logitsAt x W b r c := rfl

end Cert.Spec

end
-- ==== Proof.KIValue.lean ====
/-
  What the kernel's program computes, on the extended reals: its result array ends holding
      logits[r, c] = Σ_k x[r, k] · W[c, k] + b[c]          for every r < 64, c < 100000.

  Grid point t writes columns 2048·t … of the result from rows 2048·t … of W and lanes 2048·t … of the bias.
  At the last point the weight tile, and at every point the bias window, reach past their arrays; the staging
  buffers hold words nothing names there.  An entry of the product reads ONE row of the tile and an entry of the
  sum ONE bias lane, so the columns inside the result — the only ones written back — read rows and lanes inside
  the arrays, and the unnamed words reach only the columns the cut write-back drops.
-/
import proofs.«154675_g34668976013719_cont_8to1_b_1141_24_alg».proof.Proof.KIBody
import proofs.«154675_g34668976013719_cont_8to1_b_1141_24_alg».proof.Proof.KIFrame
import proofs.«154675_g34668976013719_cont_8to1_b_1141_24_alg».proof.Proof.KIGeom
import proofs.«154675_g34668976013719_cont_8to1_b_1141_24_alg».proof.Proof.KIPayload
import proofs.«154675_g34668976013719_cont_8to1_b_1141_24_alg».proof.Proof.Spec
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The result, and the proof data -/

/-- The result array as one function of the three argument arrays as launched. -/
def G (c : Dev nD) : Buf (Elt Ideal) ((c : Thread nD τ).loc main_v1) :=
  Cert.Spec.logits (m ((c : Thread nD τ).loc main_arg0)) (m ((c : Thread nD τ).loc main_arg1)) (m ((c : Thread nD τ).loc main_arg2))

/-- The filler past a cut: the zero word (no statement reads it). -/
abbrev zeroFill {S : Shape} : S.Idx → Elt Ideal .f32 := fun _ => Scalar.ofBits (F := Ideal) .f32 0#32

/-- On core c: the arrays as the region finds them; after the body at point t each input buffer at its block on
    the part a transfer moves, and the output buffer at block t of G on the part the write-back moves (the zero
    word past it: a filler no statement reads). -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) zeroFill (iblk m c 1 t)
    | ⟨2, _⟩ => win0_2.fill (grid0.coords t) zeroFill (iblk m c 2 t)
    | ⟨3, _⟩ => win0_3.fill (grid0.coords t) zeroFill ((win0_3.blk t).view.read (Elt Ideal) (G m c))
  Φ _ := Pipeline.ΦA spec0 c
  q _ := fullShare
  owed _ := 0

theorem A_eqV (c : Dev nD) (w : Fin cfg0.W) : (datsV m 0 c).A w = V m c (Pipeline.arrRef spec0 w) := by
  dsimp only [datsV]

theorem after0_0V (c : Dev nD) (t : Fin cfg0.N) : (datsV m 0 c).after 0 t = iblk m c 0 t := by dsimp only [datsV]
theorem after0_1V (c : Dev nD) (t : Fin cfg0.N) :
    (datsV m 0 c).after 1 t = win0_1.fill (grid0.coords t) zeroFill (iblk m c 1 t) := by dsimp only [datsV]
theorem after0_2V (c : Dev nD) (t : Fin cfg0.N) :
    (datsV m 0 c).after 2 t = win0_2.fill (grid0.coords t) zeroFill (iblk m c 2 t) := by dsimp only [datsV]
theorem after0_3V (c : Dev nD) (t : Fin cfg0.N) :
    (datsV m 0 c).after 3 t = win0_3.fill (grid0.coords t) zeroFill ((win0_3.blk t).view.read (Elt Ideal) (G m c)) := by dsimp only [datsV]

theorem keep1V (c : Dev nD) (t : Fin cfg0.N) :
    (cfg0.win 1).cut (cfg0.grid.coords t) ((datsV m 0 c).after 1 t) = (datsV m 0 c).blockOf 1 t := by
  rw [after0_1V]
  refine (win0_1.cut_fill _ _ _).trans ?_
  unfold Dat.blockOf iblk; rw [A_eqV]
theorem keep2V (c : Dev nD) (t : Fin cfg0.N) :
    (cfg0.win 2).cut (cfg0.grid.coords t) ((datsV m 0 c).after 2 t) = (datsV m 0 c).blockOf 2 t := by
  rw [after0_2V]
  refine (win0_2.cut_fill _ _ _).trans ?_
  unfold Dat.blockOf iblk; rw [A_eqV]
/-- What the write-back at point t writes: block t of G. -/
theorem keep3V (c : Dev nD) (t : Fin cfg0.N) :
    (cfg0.win 3).cut (cfg0.grid.coords t) ((datsV m 0 c).after 3 t) = ((cfg0.win 3).blk t).view.read (Elt Ideal) (G m c) := by
  rw [after0_3V]
  exact win0_3.cut_fill _ _ _

theorem before0_0V (c : Dev nD) (t : Fin cfg0.N) (d) : (datsV m 0 c).before 0 t d = iblk m c 0 t :=
  before0_0_of m (datsV m 0 c) (A_eqV m c 0) (after0_0V m c) t d
theorem before0_1V (c : Dev nD) (t : Fin cfg0.N) (d) : (datsV m 0 c).before 1 t d = (datsV m 0 c).fetched 1 t d :=
  (datsV m 0 c).before_in_eq_fetched 1 rfl (fun _ => rfl) clip1_of_index (keep1V m c) t d
theorem before0_2V (c : Dev nD) (t : Fin cfg0.N) (d) : (datsV m 0 c).before 2 t d = (datsV m 0 c).fetched 2 t d :=
  (datsV m 0 c).before_in_eq_fetched 2 rfl (fun _ => rfl) clip2_of_index (keep2V m c) t d

/-! ## The bias row the region finds is the bias vector, lane by lane -/

theorem V_bias (c : Dev nD) (col : Fin 100000) :
    V m c main_v0 (ix2 (0 : Fin 1) col) = m ((c : Thread nD τ).loc main_arg2) (ix1 col) := by
  have e : (V m c main_v0 : S1x100000.Idx → EReal)
      = shapeCast S1x100000 (m ((c : Thread nD τ).loc main_arg2)) shapeCasts_S100000_S1x100000 := by
    dsimp only [Gen.V, Gen.hostOps0]; after_results; rfl
  rw [e]
  refine (shapeCast_addUnit_apply ![100000] _ shapeCasts_S100000_S1x100000 (ix2 (0 : Fin 1) col)).trans ?_
  refine congrArg _ (funext fun a => ?_)
  match a with
  | ⟨0, _⟩ => rfl

/-! ## What the body leaves in the output buffer, at a column inside the result -/

theorem hz : (![0, 0] : Fin 2 → Nat) = fun _ => 0 := funext fun a => by fin_cases a <;> rfl

/-- Entry (r, q) of the output buffer after the body at point t, for a column 2048·t + q inside the result, is
    entry (r, 2048·t + q) of G, whatever the buffers held past the arrays' ends. -/
theorem out_at (c : Dev nD) (t : Fin cfg0.N) (d1 : S2048x2048.Idx → Elt Ideal .f32) (d2 : S1x100352.Idx → Elt Ideal .f32)
    (r : Fin 64) (q : Fin 2048) (h : 2048 * t.val + q.val < 100000) :
    outBuf (grid0.coords t) (iblk m c 0 t) ((datsV m 0 c).fetched 1 t d1) ((datsV m 0 c).fetched 2 t d2) (ix2 r q)
      = G m c (ix2 r (⟨2048 * t.val + q.val, h⟩ : Fin 100000)) := by
  unfold outBuf
  rw [View.canon_unit_zero hz]
  simp only [View.ld_unit_zero (S := S64x2048) hz, View.ld_unit_zero (S := S2048x2048) hz]
  refine (pay_at _ _ _ r q).trans ?_
  unfold G
  rw [Cert.Spec.logits_ix2]
  unfold Cert.Spec.logitsAt
  refine congrArg₂ (· + ·) (Finset.sum_congr rfl fun k _ => congrArg₂ (· * ·) ?_ ?_) ?_
  · unfold iblk
    refine (read_blk0 _ t _ r.isLt k.isLt).trans ?_
    exact congrFun (V_main_arg0 m c) _
  · rw [fetched1_at _ t d1 q k h, A_eqV]
    exact congrFun (V_main_arg1 m c) _
  · show (datsV m 0 c).fetched 2 t d2 ((rB (grid0.coords t)).idx (ix2 (0 : Fin 1) q)) = _
    have hlane : 2048 * t.val + q.val < 100352 := by omega
    have e : (rB (grid0.coords t)).idx (ix2 (0 : Fin 1) q) = ix2 (0 : Fin 1) (⟨2048 * t.val + q.val, hlane⟩ : Fin 100352) :=
      funext fun a => Fin.ext (by
        match a with
        | ⟨0, _⟩ => show k0_off1 (grid0.coords t) 0 + 1 * 0 = 0; rw [off1 t]; rfl
        | ⟨1, _⟩ => show k0_off1 (grid0.coords t) 1 + 1 * q.val = 2048 * t.val + q.val; rw [off1 t]; show 2048 * t.val + 1 * q.val = _; omega)
    rw [e, fetched2_at _ t d2 _ h, A_eqV]
    exact V_bias m c ⟨_, h⟩

/-- So on the part the write-back moves, the output buffer holds block t of G. -/
theorem cut_out (c : Dev nD) (t : Fin cfg0.N) (d1 : S2048x2048.Idx → Elt Ideal .f32) (d2 : S1x100352.Idx → Elt Ideal .f32) :
    (cfg0.win 3).cut (cfg0.grid.coords t)
        (outBuf (grid0.coords t) (iblk m c 0 t) ((datsV m 0 c).fetched 1 t d1) ((datsV m 0 c).fetched 2 t d2))
      = (cfg0.win 3).cut (cfg0.grid.coords t) ((datsV m 0 c).after 3 t) := by
  rw [keep3V]
  funext j
  have h0 : (j 0).val < win0_3.xsize (grid0.coords t) (0 : Fin 2) := (j 0).isLt
  have h1 : (j 1).val < win0_3.xsize (grid0.coords t) (1 : Fin 2) := (j 1).isLt
  rw [(xs3 t).1] at h0; rw [(xs3 t).2] at h1
  have hq : (j 1).val < 2048 := by omega
  have hc : 2048 * t.val + (j 1).val < 100000 := by omega
  rw [read_blk3 (G m c) t j h0 hc]
  show outBuf _ _ _ _ ((cfg0.win 3).xinj (cfg0.grid.coords t) j) = _
  have ej : (cfg0.win 3).xinj (cfg0.grid.coords t) j = ix2 (⟨(j 0).val, h0⟩ : Fin 64) (⟨(j 1).val, hq⟩ : Fin 2048) :=
    funext fun a => by
      match a with
      | ⟨0, _⟩ => rfl
      | ⟨1, _⟩ => rfl
  rw [ej]
  exact out_at m c t d1 d2 ⟨_, h0⟩ ⟨_, hq⟩ hc

/-! ## The body obligation, at a generic point -/

def bodyPreV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d)))

def bodyPostV (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t)
    ∗ (∃ d, owns (c : Thread nD τ) (st0_1 t) fullShare ((cfg0.win 1).fill (cfg0.grid.coords t) d ((cfg0.win 1).cut (cfg0.grid.coords t) ((datsV m 0 c).after 1 t))))
    ∗ (∃ d, owns (c : Thread nD τ) (st0_2 t) fullShare ((cfg0.win 2).fill (cfg0.grid.coords t) d ((cfg0.win 2).cut (cfg0.grid.coords t) ((datsV m 0 c).after 2 t))))
    ∗ (∃ d, owns (c : Thread nD τ) (st0_3 t) fullShare ((cfg0.win 3).fill (cfg0.grid.coords t) d ((cfg0.win 3).cut (cfg0.grid.coords t) ((datsV m 0 c).after 3 t)))))

theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV bodyAt0
  simp only [before0_0V, before0_1V, before0_2V]
  rw [show (datsV m 0 c).Φ t.succ = (datsV m 0 c).Φ t.castSucc from rfl,
    show (datsV m 0 c).owesAt () t.succ = (datsV m 0 c).owesAt () t.castSucc from rfl,
    after0_0V, keep1V, keep2V]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) ((datsV m 0 c).fetched 1 t d1) ((datsV m 0 c).fetched 2 t d2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists (outBuf (grid0.coords t) (iblk m c 0 t) ((datsV m 0 c).fetched 1 t d1) ((datsV m 0 c).fetched 2 t d2))
  rw [(cfg0.win 3).fill_congr_cut (cfg0.grid.coords t) (cut_out m c t d1 d2)]
  iexact H3

theorem body_obligationV (c : Dev nD) :
    BodyObligationLoose (datsV m 0 c) (defs₀ (F := Ideal)) Variants.none () Set.univ := fun t => by
  rw [bigSep_W0, bigSep_W0]
  exact sound_bodyV m c t

/-! ## The run, and the result array after it -/

set_option backward.isDefEq.respectTransparency.types false in
theorem run_mainV : θ_run defs (onTc (τ := τ) (main (F := Ideal))) (s₀ m ρ) (Pipeline.FramePost cfgs (datsV m) 0 (V m)) :=
  Pipeline.θ_run_frame cfgs (datsV m) (0 : Fin 1) launch0 defs₀ Variants.none m ρ main
    (hbody := fun c => body_obligationV m c) (hshare := fun c => (datsV m 0 c).share_full fun _ => rfl)
    (howed := fun _ _ => rfl) (V := V m) (hmain := hmain m Variants.none) (hA := A_eqV m) (hΦ := fun _ _ => rfl)

/-- An index of the result is in point t's block iff its coordinates are in the block's ranges inside the array. -/
theorem mem_blk3 (t : Fin cfg0.N) (i : S64x100000.Idx) :
    i ∈ ((cfg0.win 3).blk t).view.set ↔ ∀ a : Fin 2, win0_3.index t a * S64x2048.size a ≤ (i a).val
      ∧ (i a).val < win0_3.index t a * S64x2048.size a + win0_3.xsize (grid0.coords t) a := by
  show i ∈ ((View.whole main_v1).slice (win0_3.rect t)).set ↔ _
  rw [View.set_slice_whole, Rect.mem_set_unit]
  exact Iff.rfl

/-- Every column c of the result is written back, by point c / 2048. -/
theorem cover3 (i : S64x100000.Idx) :
    ∃ t : Fin cfg0.N, (cfg0.win 3).flush t = true ∧ i ∈ ((cfg0.win 3).blk t).view.set := by
  have hi0 : (i 0).val < 64 := (i 0).isLt
  have hi1 : (i 1).val < 100000 := (i 1).isLt
  have hN : (i 1).val / 2048 < cfg0.N := by show _ < grid0.N; rw [N_0]; omega
  refine ⟨⟨(i 1).val / 2048, hN⟩, flush0_3 _, ?_⟩
  rw [mem_blk3]
  intro a
  obtain ⟨e0, e1⟩ := idx3 ⟨(i 1).val / 2048, hN⟩
  obtain ⟨x0, x1⟩ := xs3 ⟨(i 1).val / 2048, hN⟩
  match a with
  | ⟨0, _⟩ =>
    show win0_3.index _ (0 : Fin 2) * 64 ≤ (i 0).val ∧ (i 0).val < win0_3.index _ (0 : Fin 2) * 64 + win0_3.xsize _ (0 : Fin 2)
    rw [e0, x0]; omega
  | ⟨1, _⟩ =>
    show win0_3.index _ (1 : Fin 2) * 2048 ≤ (i 1).val ∧ (i 1).val < win0_3.index _ (1 : Fin 2) * 2048 + win0_3.xsize _ (1 : Fin 2)
    rw [e1, x1]
    show (i 1).val / 2048 * 2048 ≤ (i 1).val ∧ (i 1).val < (i 1).val / 2048 * 2048 + min 2048 (100000 - 2048 * ((i 1).val / 2048))
    omega

/-- The result array after the run is G. -/
theorem finalV (c : Dev nD) : (datsV m 0 c).arrAt 3 cfg0.N = G m c :=
  (datsV m 0 c).arrAt_eq_of_cover 3 (G m c) (fun t _ => keep3V m c t) cover3

/-- The kernel's run on the extended reals: every weakly fair execution terminates without a fault, the result
    array ends at G of the launch arrays, and the three arguments end as launched. -/
theorem runV : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (finalV m c),
      ((h c).1 0).trans (((datsV m 0 c).arrAt_in 0 rfl _).trans ((A_eqV m c 0).trans (V_main_arg0 m c))),
      ((h c).1 1).trans (((datsV m 0 c).arrAt_in 1 rfl _).trans ((A_eqV m c 1).trans (V_main_arg1 m c))),
      ((h c).2 main_arg2 (Pipeline.mem_restRefs_of main_arg2 (by decide) (by decide))).trans (V_main_arg2 m c)⟩)
    (run_mainV m ρ)

end Cert.KernelIdeal.Hand

end
-- ==== Proof.RefValue.lean ====
/-
  The reference computes the same linear head: it transposes W to [2048, 100000], contracts x's second axis with
  the transposed matrix's first, and adds the bias broadcast to [1, 100000] and then down the 64 rows.  Entry
  (r, c) is Σ_k x[r, k] · Wᵀ[k, c] + b[c], and Wᵀ[k, c] = W[c, k].
-/
import proofs.«154675_g34668976013719_cont_8to1_b_1141_24_alg».proof.Proof.Gen.ReferenceIdeal.Read
import proofs.«154675_g34668976013719_cont_8to1_b_1141_24_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's result, as a function of its three arguments, is the linear head, entry by entry. -/
theorem ref_eq (x0 : (⟨S64x2048, .f32⟩ : BufTy).Contents (Elt Ideal)) (x1 : (⟨S100000x2048, .f32⟩ : BufTy).Contents (Elt Ideal))
    (x2 : (⟨S100000, .f32⟩ : BufTy).Contents (Elt Ideal)) :
    val_main_v4 (F := Ideal) x0 x1 x2 = Cert.Spec.logits x0 x1 x2 := by
  funext i
  obtain ⟨r, c, rfl⟩ : ∃ (r : Fin 64) (c : Fin 100000), i = ix2 r c := ⟨i 0, i 1, eq_ix2 i⟩
  rw [val_main_v4_apply, val_main_v1_apply, val_main_v3_apply, val_main_v2_apply, Cert.Spec.logits_ix2]
  unfold Cert.Spec.logitsAt
  refine (addf_apply' _ _).trans ?_
  refine congrArg₂ (· + ·) (Finset.sum_congr rfl fun k _ => ?_) ?_
  · rw [val_main_v0_apply]
    refine congrArg₂ (· * ·) (congrArg x0 (funext fun a => ?_)) (congrArg x1 (funext fun a => ?_))
    · match a with
      | ⟨0, _⟩ => rfl
      | ⟨1, _⟩ => rfl
    · match a with
      | ⟨0, _⟩ => rfl
      | ⟨1, _⟩ => rfl
  · refine congrArg x2 (funext fun a => ?_)
    match a with
    | ⟨0, _⟩ => rfl
where
  addf_apply' (a b : EReal) : FloatOps.addf (F := Ideal) (φ := .f32) a b = a + b := rfl

end Cert.ReferenceIdeal.RefValue

end
-- ==== Proof.lean ====
/-
  The claim: the tiled linear head  logits = x · Wᵀ + b  (x [64, 2048], W [100000, 2048], b [100000]) and its
  one-line reference compute the same [64, 100000] array on the extended reals, and all three programs run to
  the end without a fault and leave their arguments as launched.

  The kernel walks the 100000 output columns in 49 tiles of 2048; the last tile, and the bias window declared at
  49·2048 lanes, reach past their arrays, where the staging buffers hold words nothing names.  Every column that is
  written back reads only rows of W and lanes of b inside the arrays, so those words never reach the result.
  Both sides are then the same sum of the same products plus the same bias: no law of arithmetic is needed, and
  the finiteness of the inputs is never used.  The idealization rewrote nothing, so it preserves the kernel
  trivially.
-/
import proofs.«154675_g34668976013719_cont_8to1_b_1141_24_alg».proof.Defs
import proofs.«154675_g34668976013719_cont_8to1_b_1141_24_alg».proof.Proof.Gen.Kernel
import proofs.«154675_g34668976013719_cont_8to1_b_1141_24_alg».proof.Proof.Gen.KernelIdeal
import proofs.«154675_g34668976013719_cont_8to1_b_1141_24_alg».proof.Proof.Gen.ReferenceIdeal
import proofs.«154675_g34668976013719_cont_8to1_b_1141_24_alg».proof.Proof.Gen.Pre_finite_inputs
import proofs.«154675_g34668976013719_cont_8to1_b_1141_24_alg».proof.Proof.Gen.ReferenceIdeal.Read
import proofs.«154675_g34668976013719_cont_8to1_b_1141_24_alg».proof.Proof.KFrame
import proofs.«154675_g34668976013719_cont_8to1_b_1141_24_alg».proof.Proof.KIFrame
import proofs.«154675_g34668976013719_cont_8to1_b_1141_24_alg».proof.Proof.KIValue
import proofs.«154675_g34668976013719_cont_8to1_b_1141_24_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frameF m ρ

theorem frame_ki : Cert.frame_KernelIdeal := fun m ρ _ => Cert.KernelIdeal.Hand.frameF m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the same function of arguments that agree. -/
theorem algebraic : Cert.algebraic_KernelIdeal_ReferenceIdeal := by
  intro m ρ m' ρ' _ hagree
  refine ⟨fun c => Cert.KernelIdeal.Hand.G m c, Cert.KernelIdeal.Hand.runV m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
